-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x1024 : Shape := ⟨3, ![512, 64, 1024]⟩
abbrev S1x1024x1024 : Shape := ⟨3, ![1, 1024, 1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S512x64x1024 .f32) (main_arg1 : FVec F S1x1024x1024 .f32) : IVec S_ 1 :=
  let main_v0 : FVec F S512x64x1024 .f32 := Host.absf main_arg0
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  main_v8
-- ==== Kernel.lean ====
abbrev S512x64x1024 : Shape := ⟨3, ![512, 64, 1024]⟩
abbrev S1x1024x1024 : Shape := ⟨3, ![1, 1024, 1024]⟩
abbrev S512x65536 : Shape := ⟨2, ![512, 65536]⟩
abbrev S1024x1024 : Shape := ⟨2, ![1024, 1024]⟩
abbrev S64x16x64 : Shape := ⟨3, ![64, 16, 64]⟩
abbrev S512x1024 : Shape := ⟨2, ![512, 1024]⟩
abbrev S1x16x64 : Shape := ⟨3, ![1, 16, 64]⟩
abbrev S512x16x64 : Shape := ⟨3, ![512, 16, 64]⟩
abbrev S512x16x1 : Shape := ⟨3, ![512, 16, 1]⟩
abbrev S512x1 : Shape := ⟨2, ![512, 1]⟩
abbrev S512x1x1 : Shape := ⟨3, ![512, 1, 1]⟩
abbrev S16x64 : Shape := ⟨2, ![16, 64]⟩
abbrev S16 : Shape := ⟨1, ![16]⟩
abbrev S16x1 : Shape := ⟨2, ![16, 1]⟩
abbrev S512x16 : Shape := ⟨2, ![512, 16]⟩

abbrev nBuf : Space → Nat
  | .hbm => 6
  | .vmem => 5
  | .smem => 0
  | _ => 0

abbrev bufTy : (tb : Table) → Fin (tcTables nBuf tb) → BufTy
  | .hbm, ⟨0, _⟩ => ⟨S512x64x1024, .f32⟩
  | .hbm, ⟨1, _⟩ => ⟨S1x1024x1024, .f32⟩
  | .hbm, ⟨2, _⟩ => ⟨S512x65536, .f32⟩
  | .hbm, ⟨3, _⟩ => ⟨S1024x1024, .f32⟩
  | .hbm, ⟨4, _⟩ => ⟨S1024x1024, .bf16⟩
  | .hbm, ⟨5, _⟩ => ⟨S64x16x64, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x16x64, .f32⟩
  | .local _ .vmem, ⟨4, _⟩ => ⟨S1x16x64, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x64x1024_S512x65536 : S512x64x1024.ShapeCasts S512x65536
  shapeCasts_S1x1024x1024_S1024x1024 : S1x1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x16x64 : S512x1024.ShapeCasts S512x16x64
  reduces_S512x16x1_S512x1 : S512x16x1.Reduces [1] S512x1
  shapeCasts_S512x1_S512x1x1 : S512x1.ShapeCasts S512x1x1
  broadcasts_S512x1x1_S512x16x1 : S512x1x1.Broadcasts S512x16x1
  broadcasts_S512x16x1_S512x16x64 : S512x16x1.Broadcasts S512x16x64
  reduces_S512x16x64_S16x64 : S512x16x64.Reduces [0] S16x64
  reduces_S16x64_S16 : S16x64.Reduces [1] S16
  shapeCasts_S16_S16x1 : S16.ShapeCasts S16x1
  broadcasts_S16x1_S16x64 : S16x1.Broadcasts S16x64
  shapeCasts_S16x64_S1x16x64 : S16x64.ShapeCasts S1x16x64
  broadcasts_S1x16x64_S512x16x64 : S1x16x64.Broadcasts S512x16x64
  reduces_S512x16x64_S512x16 : S512x16x64.Reduces [2] S512x16
  shapeCasts_S512x16_S512x16x1 : S512x16.ShapeCasts S512x16x1
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x65536.size a
  hwx0_0 : ∀ i : grid0.Coords, EltTy.bits .f32 = 32 ∨ (Rect.block (s := S512x65536) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x64.size a ≤ S64x16x64.size a
  hwx0_2 : ∀ i : grid0.Coords, EltTy.bits .f32 = 32 ∨ (Rect.block (s := S64x16x64) S1x16x64.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x64x1024 : Shape := ⟨3, ![512, 64, 1024]⟩
abbrev S1x1024x1024 : Shape := ⟨3, ![1, 1024, 1024]⟩
abbrev S64x512x1024 : Shape := ⟨3, ![64, 512, 1024]⟩
abbrev S1024x1024 : Shape := ⟨2, ![1024, 1024]⟩
abbrev S64x512x16x64 : Shape := ⟨4, ![64, 512, 16, 64]⟩
abbrev S64x16x512x64 : Shape := ⟨4, ![64, 16, 512, 64]⟩
abbrev S_ : Shape := ⟨0, ![]⟩
abbrev S64x16x512x1 : Shape := ⟨4, ![64, 16, 512, 1]⟩
abbrev S64x512x1 : Shape := ⟨3, ![64, 512, 1]⟩
abbrev S64x1x512x1 : Shape := ⟨4, ![64, 1, 512, 1]⟩
abbrev S64x16x64 : Shape := ⟨3, ![64, 16, 64]⟩
abbrev S64x16 : Shape := ⟨2, ![64, 16]⟩
abbrev S64x16x1 : Shape := ⟨3, ![64, 16, 1]⟩
abbrev S64x16x1x64 : Shape := ⟨4, ![64, 16, 1, 64]⟩
abbrev S64x16x512 : Shape := ⟨3, ![64, 16, 512]⟩

abbrev nBuf : Space → Nat
  | .hbm => 142
  | .vmem => 0
  | .smem => 0
  | _ => 0

abbrev hbmTy0_0 (i : Nat) : BufTy := match i % 128 with
  | 0 => ⟨S512x64x1024, .f32⟩
  | 1 => ⟨S1x1024x1024, .f32⟩
  | 2 => ⟨S64x512x1024, .f32⟩
  | 3 => ⟨S1024x1024, .f32⟩
  | 4 => ⟨S64x512x1024, .f32⟩
  | 5 => ⟨S64x512x16x64, .f32⟩
  | 6 => ⟨S64x16x512x64, .f32⟩
  | 7 => ⟨S_, .f32⟩
  | 8 => ⟨S64x16x512x1, .f32⟩
  | 9 => ⟨S_, .f32⟩
  | 10 => ⟨S64x512x1, .f32⟩
  | 11 => ⟨S_, .f32⟩
  | 12 => ⟨S64x512x1, .f32⟩
  | 13 => ⟨S64x512x1, .f32⟩
  | 14 => ⟨S64x1x512x1, .f32⟩
  | 15 => ⟨S64x16x512x1, .f32⟩
  | 16 => ⟨S64x16x512x1, .f32⟩
  | 17 => ⟨S64x16x512x1, .f32⟩
  | 18 => ⟨S_, .f32⟩
  | 19 => ⟨S64x512x1, .f32⟩
  | 20 => ⟨S64x1x512x1, .f32⟩
  | 21 => ⟨S64x16x512x1, .f32⟩
  | 22 => ⟨S64x16x512x1, .f32⟩
  | 23 => ⟨S64x16x512x64, .f32⟩
  | 24 => ⟨S64x16x512x64, .f32⟩
  | 25 => ⟨S_, .f32⟩
  | 26 => ⟨S64x16x64, .f32⟩
  | 27 => ⟨S64x16x64, .f32⟩
  | 28 => ⟨S_, .f32⟩
  | 29 => ⟨S64x16, .f32⟩
  | 30 => ⟨S64x16x1, .f32⟩
  | 31 => ⟨S_, .f32⟩
  | 32 => ⟨S64x16x1, .f32⟩
  | 33 => ⟨S64x16x1, .f32⟩
  | 34 => ⟨S64x16x1, .f32⟩
  | 35 => ⟨S64x16x64, .f32⟩
  | 36 => ⟨S64x16x64, .f32⟩
  | 37 => ⟨S64x16x1x64, .f32⟩
  | 38 => ⟨S64x16x512x64, .f32⟩
  | 39 => ⟨S64x16x512x64, .f32⟩
  | 40 => ⟨S_, .f32⟩
  | 41 => ⟨S64x16x512, .f32⟩
  | 42 => ⟨S64x16x512x1, .f32⟩
  | 43 => ⟨S64x16x512x1, .f32⟩
  | 44 => ⟨S_, .f32⟩
  | 45 => ⟨S64x512x1, .f32⟩
  | 46 => ⟨S_, .f32⟩
  | 47 => ⟨S64x512x1, .f32⟩
  | 48 => ⟨S64x512x1, .f32⟩
  | 49 => ⟨S64x1x512x1, .f32⟩
  | 50 => ⟨S64x16x512x1, .f32⟩
  | 51 => ⟨S64x16x512x1, .f32⟩
  | 52 => ⟨S64x16x512x1, .f32⟩
  | 53 => ⟨S_, .f32⟩
  | 54 => ⟨S64x512x1, .f32⟩
  | 55 => ⟨S64x1x512x1, .f32⟩
  | 56 => ⟨S64x16x512x1, .f32⟩
  | 57 => ⟨S64x16x512x1, .f32⟩
  | 58 => ⟨S64x16x512x64, .f32⟩
  | 59 => ⟨S64x16x512x64, .f32⟩
  | 60 => ⟨S_, .f32⟩
  | 61 => ⟨S64x16x64, .f32⟩
  | 62 => ⟨S64x16x64, .f32⟩
  | 63 => ⟨S_, .f32⟩
  | 64 => ⟨S64x16, .f32⟩
  | 65 => ⟨S64x16x1, .f32⟩
  | 66 => ⟨S_, .f32⟩
  | 67 => ⟨S64x16x1, .f32⟩
  | 68 => ⟨S64x16x1, .f32⟩
  | 69 => ⟨S64x16x1, .f32⟩
  | 70 => ⟨S64x16x64, .f32⟩
  | 71 => ⟨S64x16x64, .f32⟩
  | 72 => ⟨S64x16x1x64, .f32⟩
  | 73 => ⟨S64x16x512x64, .f32⟩
  | 74 => ⟨S64x16x512x64, .f32⟩
  | 75 => ⟨S_, .f32⟩
  | 76 => ⟨S64x16x512, .f32⟩
  | 77 => ⟨S64x16x512x1, .f32⟩
  | 78 => ⟨S64x16x512x1, .f32⟩
  | 79 => ⟨S_, .f32⟩
  | 80 => ⟨S64x512x1, .f32⟩
  | 81 => ⟨S_, .f32⟩
  | 82 => ⟨S64x512x1, .f32⟩
  | 83 => ⟨S64x512x1, .f32⟩
  | 84 => ⟨S64x1x512x1, .f32⟩
  | 85 => ⟨S64x16x512x1, .f32⟩
  | 86 => ⟨S64x16x512x1, .f32⟩
  | 87 => ⟨S64x16x512x1, .f32⟩
  | 88 => ⟨S_, .f32⟩
  | 89 => ⟨S64x512x1, .f32⟩
  | 90 => ⟨S64x1x512x1, .f32⟩
  | 91 => ⟨S64x16x512x1, .f32⟩
  | 92 => ⟨S64x16x512x1, .f32⟩
  | 93 => ⟨S64x16x512x64, .f32⟩
  | 94 => ⟨S64x16x512x64, .f32⟩
  | 95 => ⟨S_, .f32⟩
  | 96 => ⟨S64x16x64, .f32⟩
  | 97 => ⟨S64x16x64, .f32⟩
  | 98 => ⟨S_, .f32⟩
  | 99 => ⟨S64x16, .f32⟩
  | 100 => ⟨S64x16x1, .f32⟩
  | 101 => ⟨S_, .f32⟩
  | 102 => ⟨S64x16x1, .f32⟩
  | 103 => ⟨S64x16x1, .f32⟩
  | 104 => ⟨S64x16x1, .f32⟩
  | 105 => ⟨S64x16x64, .f32⟩
  | 106 => ⟨S64x16x64, .f32⟩
  | 107 => ⟨S64x16x1x64, .f32⟩
  | 108 => ⟨S64x16x512x64, .f32⟩
  | 109 => ⟨S64x16x512x64, .f32⟩
  | 110 => ⟨S_, .f32⟩
  | 111 => ⟨S64x16x512, .f32⟩
  | 112 => ⟨S64x16x512x1, .f32⟩
  | 113 => ⟨S64x16x512x1, .f32⟩
  | 114 => ⟨S_, .f32⟩
  | 115 => ⟨S64x512x1, .f32⟩
  | 116 => ⟨S_, .f32⟩
  | 117 => ⟨S64x512x1, .f32⟩
  | 118 => ⟨S64x512x1, .f32⟩
  | 119 => ⟨S64x1x512x1, .f32⟩
  | 120 => ⟨S64x16x512x1, .f32⟩
  | 121 => ⟨S64x16x512x1, .f32⟩
  | 122 => ⟨S64x16x512x1, .f32⟩
  | 123 => ⟨S_, .f32⟩
  | 124 => ⟨S64x512x1, .f32⟩
  | 125 => ⟨S64x1x512x1, .f32⟩
  | 126 => ⟨S64x16x512x1, .f32⟩
  | 127 => ⟨S64x16x512x1, .f32⟩
  | _ => ⟨S512x64x1024, .f32⟩

abbrev hbmTy0_1 (i : Nat) : BufTy := match i % 128 with
  | 0 => ⟨S64x16x512x64, .f32⟩
  | 1 => ⟨S64x16x512x64, .f32⟩
  | 2 => ⟨S_, .f32⟩
  | 3 => ⟨S64x16x64, .f32⟩
  | 4 => ⟨S64x16x64, .f32⟩
  | 5 => ⟨S_, .f32⟩
  | 6 => ⟨S64x16, .f32⟩
  | 7 => ⟨S64x16x1, .f32⟩
  | 8 => ⟨S_, .f32⟩
  | 9 => ⟨S64x16x1, .f32⟩
  | 10 => ⟨S64x16x1, .f32⟩
  | 11 => ⟨S64x16x1, .f32⟩
  | 12 => ⟨S64x16x64, .f32⟩
  | 13 => ⟨S64x16x64, .f32⟩
  | _ => ⟨S512x64x1024, .f32⟩

abbrev hbmTy (i : Nat) : BufTy := match i / 128 with
  | 0 => hbmTy0_0 i
  | 1 => hbmTy0_1 i
  | _ => ⟨S512x64x1024, .f32⟩

abbrev bufTy : (tb : Table) → Fin (tcTables nBuf tb) → BufTy
  | .hbm, ⟨i, _⟩ => hbmTy i
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_10 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_cst_15 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_cst_18 : Ref sig .tc := ⟨.hbm, 98, rfl⟩
abbrev main_v77 : Ref sig .tc := ⟨.hbm, 99, rfl⟩
abbrev main_v78 : Ref sig .tc := ⟨.hbm, 100, rfl⟩
abbrev main_cst_19 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_20 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_21 : Ref sig .tc := ⟨.hbm, 114, rfl⟩
abbrev main_v90 : Ref sig .tc := ⟨.hbm, 115, rfl⟩
abbrev main_cst_22 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_23 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_24 : Ref sig .tc := ⟨.hbm, 130, rfl⟩
abbrev main_v103 : Ref sig .tc := ⟨.hbm, 131, rfl⟩
abbrev main_v104 : Ref sig .tc := ⟨.hbm, 132, rfl⟩
abbrev main_cst_25 : Ref sig .tc := ⟨.hbm, 133, rfl⟩
abbrev main_v105 : Ref sig .tc := ⟨.hbm, 134, rfl⟩
abbrev main_v106 : Ref sig .tc := ⟨.hbm, 135, rfl⟩
abbrev main_cst_26 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩

abbrev nD : Nat := 1
abbrev τ : Topo := Topo.v7x

variable {F : FTy → Type} [FloatOps F]

class Facts₀ : Prop where
  transposes_S512x64x1024_S64x512x1024_1_0_2 : S512x64x1024.Transposes [1, 0, 2] S64x512x1024
  shapeCasts_S1x1024x1024_S1024x1024 : S1x1024x1024.ShapeCasts S1024x1024
  shapeCasts_S64x512x1024_S64x512x16x64 : S64x512x1024.ShapeCasts S64x512x16x64
  transposes_S64x512x16x64_S64x16x512x64_0_2_1_3 : S64x512x16x64.Transposes [0, 2, 1, 3] S64x16x512x64
  bcast_S_S64x16x512x1 : S_.BroadcastsInDim S64x16x512x1 (![] : Fin 0 → Fin S64x16x512x1.rank)
  reducesTo_S64x16x512x1_S64x512x1_d1 : S64x16x512x1.ReducesTo [1] S64x512x1
  h_S_ : 0 < S_.numel
  bcast_S_S64x512x1 : S_.BroadcastsInDim S64x512x1 (![] : Fin 0 → Fin S64x512x1.rank)
  bcast_S64x512x1_S64x1x512x1_0_2_3 : S64x512x1.BroadcastsInDim S64x1x512x1 (![0, 2, 3] : Fin 3 → Fin S64x1x512x1.rank)
  bcast_S64x1x512x1_S64x16x512x1_0_1_2_3 : S64x1x512x1.BroadcastsInDim S64x16x512x1 (![0, 1, 2, 3] : Fin 4 → Fin S64x16x512x1.rank)
  bcast_S64x16x512x1_S64x16x512x64_0_1_2_3 : S64x16x512x1.BroadcastsInDim S64x16x512x64 (![0, 1, 2, 3] : Fin 4 → Fin S64x16x512x64.rank)
  reducesTo_S64x16x512x64_S64x16x64_d2 : S64x16x512x64.ReducesTo [2] S64x16x64
  reducesTo_S64x16x64_S64x16_d2 : S64x16x64.ReducesTo [2] S64x16
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x64_0_1_2 : S64x16x1.BroadcastsInDim S64x16x64 (![0, 1, 2] : Fin 3 → Fin S64x16x64.rank)
  bcast_S64x16x64_S64x16x1x64_0_1_3 : S64x16x64.BroadcastsInDim S64x16x1x64 (![0, 1, 3] : Fin 3 → Fin S64x16x1x64.rank)
  bcast_S64x16x1x64_S64x16x512x64_0_1_2_3 : S64x16x1x64.BroadcastsInDim S64x16x512x64 (![0, 1, 2, 3] : Fin 4 → Fin S64x16x512x64.rank)
  reducesTo_S64x16x512x64_S64x16x512_d3 : S64x16x512x64.ReducesTo [3] S64x16x512
  bcast_S64x16x512_S64x16x512x1_0_1_2 : S64x16x512.BroadcastsInDim S64x16x512x1 (![0, 1, 2] : Fin 3 → Fin S64x16x512x1.rank)
  dot_S64x512x1024_S1024x1024_S64x512x1024_2_0_01_1_n_n_wf : DotDims.WF S64x512x1024 S1024x1024 S64x512x1024 [2] [0] [0, 1] [1] [] []

variable [Facts₀]

def dot_S64x512x1024_S1024x1024_S64x512x1024_2_0_01_1_n_n : DotDims S64x512x1024 S1024x1024 S64x512x1024 where
  lhsContracting := [2]
  rhsContracting := [0]
  lhsNonContracting := [0, 1]
  rhsNonContracting := [1]
  lhsBatch := []
  rhsBatch := []
  wf := dot_S64x512x1024_S1024x1024_S64x512x1024_2_0_01_1_n_n_wf

class Facts : Prop extends Facts₀ where

variable [Facts]
-- ==== Proof.Routing.lean ====
/-
  Dynamic routing between capsules, for ONE batch element, as plain functions on the extended reals.

  From the votes `u s n d` (position `s` of 512, capsule `n` of 16, coordinate `d` of 64) and logits `b s n`:
  the coupling of position `s` to capsule `n` is the softmax of `b s ·` over the capsules, taken the usual stable way
  (subtract the row maximum, exponentiate, divide by the row sum); a capsule's raw output is the coupling-weighted sum of
  its votes over the positions; the output is squashed by the reciprocal square root of its squared norm plus a small
  positive literal; and the logits grow by the agreement `∑ d, out n d · u s n d`.  Four rounds from zero logits.

  The squash is written in two ways, `x · rsqrt y` and `x / sqrt y`.  On the extended reals these agree whenever
  `0 < y` (at `y = ⊤` both are `0`; at a positive real both are `x · (√y)⁻¹`), and here `y` is a sum of squares,
  which is never negative, plus a positive real: `squashMul_eq_squashDiv`.  No finiteness of `x` is needed.
-/
import Idealize.ShloMosaic.PureOps.Ideal
import Idealize.ShloMosaic.PureOps.Ideal.Laws
import Idealize.ShloMosaic.Lib.IdealHost

noncomputable section

namespace Routing

open Idealize.ShloMosaic

/-- The three float words the two programs share: zero, minus infinity, and the small positive number under the root. -/
abbrev zeroW : EReal := Ideal.ofBits .f32 0x00000000#32
abbrev negInfW : EReal := Ideal.ofBits .f32 0xFF800000#32
abbrev epsW : EReal := Ideal.ofBits .f32 0x33D6BF95#32

abbrev Logits := Fin 512 → Fin 16 → EReal
abbrev Votes := Fin 512 → Fin 16 → Fin 64 → EReal
abbrev Caps := Fin 16 → Fin 64 → EReal

/-- `exp (b s n − max_n' b s n')`, the maximum started at minus infinity (and taken against it once more). -/
def shifted (b : Logits) : Logits := fun s n =>
  Ideal.exp (b s n - max negInfW ((Finset.univ : Finset (Fin 16)).fold max negInfW (fun n' => b s n')))

/-- The coupling-weighted sum of the votes over the positions, the coupling being `e s n / ∑ n', e s n'`. -/
def weighted (e : Logits) (u : Votes) : Caps := fun n d =>
  ∑ s : Fin 512, Ideal.div (e s n) (∑ n' : Fin 16, e s n') * u s n d

/-- A capsule's squared norm. -/
def sqnorm (o : Caps) (n : Fin 16) : EReal := ∑ d : Fin 64, o n d * o n d

/-- The squash by a product with the reciprocal root. -/
def squashMul (o : Caps) : Caps := fun n d => o n d * Ideal.rsqrt (sqnorm o n + epsW)

/-- The squash by a quotient by the root. -/
def squashDiv (o : Caps) : Caps := fun n d => Ideal.div (o n d) (Ideal.sqrt (sqnorm o n + epsW))

/-- The logits after one round: each grows by the agreement of the capsule's output with the position's vote. -/
def agree (b : Logits) (v : Caps) (u : Votes) : Logits := fun s n => b s n + ∑ d : Fin 64, v n d * u s n d

/-- Four rounds from zero logits, with the squash `sq`. -/
def route (sq : Caps → Caps) (u : Votes) : Caps :=
  let b0 : Logits := fun _ _ => zeroW
  let b1 := agree b0 (sq (weighted (shifted b0) u)) u
  let b2 := agree b1 (sq (weighted (shifted b1) u)) u
  let b3 := agree b2 (sq (weighted (shifted b2) u)) u
  sq (weighted (shifted b3) u)

/-! ## The two squashes are one function -/

/-- A square is never negative on the extended reals (the two infinities square to `⊤`). -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

theorem sqnorm_nonneg (o : Caps) (n : Fin 16) : 0 ≤ sqnorm o n :=
  Finset.sum_nonneg fun d _ => mul_self_nonneg (o n d)

/-- The literal under the root is a positive real. -/
theorem epsW_pos : ∃ r : ℝ, 0 < r ∧ epsW = (r : EReal) := by
  refine ⟨(14073749 : ℝ) * (2 : ℝ) ^ (-47 : Int), by positivity, ?_⟩
  simp [epsW, Ideal.ofBits, Ideal.ieee, -EReal.coe_mul]

/-- For `0 < y` the product with the reciprocal root is the quotient by the root. -/
theorem mul_rsqrt_eq_div_sqrt (x y : EReal) (hy : 0 < y) : x * Ideal.rsqrt y = Ideal.div x (Ideal.sqrt y) := by
  induction y using EReal.rec with
  | bot => exact absurd hy (by simp)
  | top =>
    rw [Ideal.rsqrt_top, Ideal.sqrt_top]
    unfold Ideal.div
    rw [if_neg (by simp), EReal.inv_top]
  | coe r =>
    have hr : 0 < r := EReal.coe_pos.mp hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

theorem squashMul_eq_squashDiv (o : Caps) : squashMul o = squashDiv o := by
  funext n d
  obtain ⟨r, hr, he⟩ := epsW_pos
  have hy : 0 < sqnorm o n + epsW := by
    rw [he]
    exact lt_of_lt_of_le (EReal.coe_pos.mpr hr) (le_add_of_nonneg_left (sqnorm_nonneg o n))
  exact mul_rsqrt_eq_div_sqrt _ _ hy

theorem route_squash (u : Votes) : route squashMul u = route squashDiv u := by
  have h : squashMul = squashDiv := funext squashMul_eq_squashDiv
  rw [h]

end Routing

end
-- ==== Proof.KernelRound.lean ====
/-
  One routing round as the kernel's body computes it, read index by index.

  The body holds, for one batch element, the votes as a [512, 16, 64] vector and the logits as a [512, 16, 1] vector, and
  moves between them by keep-dimension reductions, unit-axis shape casts and broadcasts.  Each lemma here takes one
  stretch of those vector operations, generic in the vectors, and says what it holds at a coordinate triple or pair: the
  corresponding function of `Routing` of the vectors read at coordinates (`logitsOf`, `votesOf`, `capsOf`).
  A reduction over one axis is the `Finset` sum, or fold of `max`, over that axis's coordinate; a cast or broadcast
  reads the operand at the index with the same coordinates, `0` on a unit axis.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«165373_j42949672960675_2_alg».proof.Proof.Routing

noncomputable section

namespace KernelRound

open Idealize.ShloMosaic Idealize.ShloMosaic.ValueIdx Routing

abbrev S512x16x64 : Shape := ⟨3, ![512, 16, 64]⟩
abbrev S512x16x1 : Shape := ⟨3, ![512, 16, 1]⟩
abbrev S512x1 : Shape := ⟨2, ![512, 1]⟩
abbrev S512x1x1 : Shape := ⟨3, ![512, 1, 1]⟩
abbrev S16x64 : Shape := ⟨2, ![16, 64]⟩
abbrev S16 : Shape := ⟨1, ![16]⟩
abbrev S16x1 : Shape := ⟨2, ![16, 1]⟩
abbrev S512x16 : Shape := ⟨2, ![512, 16]⟩
abbrev S1x16x64 : Shape := ⟨3, ![1, 16, 64]⟩

/-- The logits, votes and capsule outputs a vector holds, by coordinates. -/
def logitsOf (b : FVec Ideal S512x16x1 .f32) : Logits := fun s n => b (ix3 s n 0)
def votesOf (u : FVec Ideal S512x16x64 .f32) : Votes := fun s n d => u (ix3 s n d)
def capsOf (o : FVec Ideal S16x64 .f32) : Caps := fun n d => o (ix2 n d)

/-! ## The shape facts the operations take (all decided at these literal shapes) -/

theorem hFmt : FKind.Formats .f32 := .inl rfl
theorem hAddAcc : (0x00000000#32 : BitVec FTy.f32.bits) = FKind.add.neutral .f32 hFmt := rfl
theorem hMaxAcc : (0xFF800000#32 : BitVec FTy.f32.bits) = FKind.maximumf.neutral .f32 hFmt := rfl
theorem hRedCaps : S512x16x1.Reduces [1] S512x1 := by decide
theorem hCastRow : S512x1.ShapeCasts S512x1x1 := by decide
theorem hBcRow : S512x1x1.Broadcasts S512x16x1 := by decide
theorem hBcLane : S512x16x1.Broadcasts S512x16x64 := by decide
theorem hRedPos : S512x16x64.Reduces [0] S16x64 := by decide
theorem hRedCoord : S16x64.Reduces [1] S16 := by decide
theorem hCastCol : S16.ShapeCasts S16x1 := by decide
theorem hBcCol : S16x1.Broadcasts S16x64 := by decide
theorem hCastLead : S16x64.ShapeCasts S1x16x64 := by decide
theorem hBcLead : S1x16x64.Broadcasts S512x16x64 := by decide
theorem hRedLane : S512x16x64.Reduces [2] S512x16 := by decide
theorem hCastKeep : S512x16.ShapeCasts S512x16x1 := by decide

/-! ## One round's four stretches of vector operations -/

/-- `exp (b − rowmax b)`, the row maximum kept as a unit axis and broadcast back. -/
def shiftV (b : FVec Ideal S512x16x1 .f32) : FVec Ideal S512x16x1 .f32 :=
  exp (subf b (broadcastTo S512x16x1 (shapeCast S512x1x1 (maximumf (broadcast S512x1 (Scalar.ofBits (F := Ideal) .f32 0xFF800000#32))
    (multiReduction .maximumf [1] S512x1 b 0xFF800000#32 hRedCaps hFmt hMaxAcc)) hCastRow) hBcRow))

/-- The couplings `e / rowsum e` broadcast over the coordinates, times the votes, summed over the positions. -/
def weightedV (e : FVec Ideal S512x16x1 .f32) (u : FVec Ideal S512x16x64 .f32) : FVec Ideal S16x64 .f32 :=
  multiReduction .add [0] S16x64 (mulf (broadcastTo S512x16x64 (divf e (broadcastTo S512x16x1 (shapeCast S512x1x1
    (multiReduction .add [1] S512x1 e 0x00000000#32 hRedCaps hFmt hAddAcc) hCastRow) hBcRow)) hBcLane) u) 0x00000000#32 hRedPos hFmt hAddAcc

/-- The squash: times the reciprocal root of the squared norm plus the literal. -/
def squashV (o : FVec Ideal S16x64 .f32) : FVec Ideal S16x64 .f32 :=
  mulf o (broadcastTo S16x64 (rsqrt (addf (shapeCast S16x1 (multiReduction .add [1] S16 (mulf o o) 0x00000000#32 hRedCoord hFmt hAddAcc) hCastCol)
    (broadcast S16x1 (Scalar.ofBits (F := Ideal) .f32 0x33D6BF95#32)))) hBcCol)

/-- The logits plus the agreement of the squashed output with each vote. -/
def agreeV (b : FVec Ideal S512x16x1 .f32) (v : FVec Ideal S16x64 .f32) (u : FVec Ideal S512x16x64 .f32) : FVec Ideal S512x16x1 .f32 :=
  addf b (shapeCast S512x16x1 (multiReduction .add [2] S512x16 (mulf (broadcastTo S512x16x64 (shapeCast S1x16x64 v hCastLead) hBcLead) u)
    0x00000000#32 hRedLane hFmt hAddAcc) hCastKeep)

/-! ## A reduced index with the dropped coordinate put back -/

theorem lift_caps (s : Fin 512) (k : Fin (S512x16x1.size 1)) : hRedCaps.lift (ix2 s 0) k = ix3 s (⟨k.val, k.isLt⟩ : Fin 16) 0 := by
  funext c; apply Fin.ext
  fin_cases c <;> rfl

theorem lift_pos (n : Fin 16) (d : Fin 64) (k : Fin (S512x16x64.size 0)) : hRedPos.lift (ix2 n d) k = ix3 (⟨k.val, k.isLt⟩ : Fin 512) n d := by
  funext c; apply Fin.ext
  fin_cases c <;> rfl

theorem lift_coord (n : Fin 16) (k : Fin (S16x64.size 1)) : hRedCoord.lift (ix1 n) k = ix2 n (⟨k.val, k.isLt⟩ : Fin 64) := by
  funext c; apply Fin.ext
  fin_cases c <;> rfl

theorem lift_lane (s : Fin 512) (n : Fin 16) (k : Fin (S512x16x64.size 2)) : hRedLane.lift (ix2 s n) k = ix3 s n (⟨k.val, k.isLt⟩ : Fin 64) := by
  funext c; apply Fin.ext
  fin_cases c <;> rfl

/-! ## The reads -/

/-- A row's keep-dimension value broadcast back over the capsules, at (s, n, 0): the row's value at (s, 0). -/
theorem rowBack_read (r : FVec Ideal S512x1 .f32) (s : Fin 512) (n : Fin 16) :
    broadcastTo S512x16x1 (shapeCast S512x1x1 r hCastRow) hBcRow (ix3 s n 0) = r (ix2 s 0) := by
  refine (broadcastTo_apply _ hBcRow (ix3 s n 0) (ix3 s 0 0) (fun a => match a with
    | ⟨0, _⟩ => rfl | ⟨1, _⟩ => rfl | ⟨2, _⟩ => rfl)).trans ?_
  exact shapeCast_apply _ hCastRow (ix3 s 0 0) (ix2 s 0) (by
    rw [Shape.rowMajor_val_two, Shape.rowMajor_val_three]
    show s.val * 1 + 0 = (s.val * 1 + 0) * 1 + 0; omega)

theorem shiftV_read (b : FVec Ideal S512x16x1 .f32) : logitsOf (shiftV b) = shifted (logitsOf b) := by
  funext s n
  show Ideal.exp (b (ix3 s n 0) - broadcastTo S512x16x1 (shapeCast S512x1x1 _ hCastRow) hBcRow (ix3 s n 0)) = _
  rw [rowBack_read]
  show Ideal.exp (b (ix3 s n 0) - max negInfW (multiReduction .maximumf [1] S512x1 b 0xFF800000#32 hRedCaps hFmt hMaxAcc (ix2 s 0))) = _
  rw [Ideal.multiReduction_maximumf_single]
  have hf : (b ∘ hRedCaps.lift (ix2 s 0)) = fun k : Fin 16 => b (ix3 s k 0) := funext fun k => congrArg b (lift_caps s k)
  unfold shifted logitsOf
  exact congrArg (fun f => Ideal.exp (b (ix3 s n 0) - max negInfW (Finset.fold max negInfW f (Finset.univ : Finset (Fin 16))))) hf

theorem weightedV_read (e : FVec Ideal S512x16x1 .f32) (u : FVec Ideal S512x16x64 .f32) :
    capsOf (weightedV e u) = weighted (logitsOf e) (votesOf u) := by
  funext n d
  unfold capsOf weightedV
  rw [Ideal.multiReduction_add_single]
  unfold weighted logitsOf votesOf
  refine Finset.sum_congr rfl fun k _ => ?_
  rw [lift_pos n d k]
  show broadcastTo S512x16x64 _ hBcLane (ix3 (⟨k.val, k.isLt⟩ : Fin 512) n d) * u (ix3 (⟨k.val, k.isLt⟩ : Fin 512) n d) = _
  rw [broadcastTo_apply _ hBcLane (ix3 (⟨k.val, k.isLt⟩ : Fin 512) n d) (ix3 (⟨k.val, k.isLt⟩ : Fin 512) n 0) (fun a => match a with
    | ⟨0, _⟩ => rfl | ⟨1, _⟩ => rfl | ⟨2, _⟩ => rfl)]
  show Ideal.div (e (ix3 (⟨k.val, k.isLt⟩ : Fin 512) n 0)) (broadcastTo S512x16x1 (shapeCast S512x1x1 _ hCastRow) hBcRow (ix3 (⟨k.val, k.isLt⟩ : Fin 512) n 0)) * _ = _
  rw [rowBack_read, Ideal.multiReduction_add_single]
  have hs : (∑ k' : Fin (S512x16x1.size 1), e (hRedCaps.lift (ix2 (⟨k.val, k.isLt⟩ : Fin 512) 0) k')) = ∑ n' : Fin 16, e (ix3 (⟨k.val, k.isLt⟩ : Fin 512) n' 0) :=
    Finset.sum_congr rfl fun k' _ => congrArg e (lift_caps _ k')
  rw [hs]
  rfl

theorem squashV_read (o : FVec Ideal S16x64 .f32) : capsOf (squashV o) = squashMul (capsOf o) := by
  funext n d
  show o (ix2 n d) * broadcastTo S16x64 _ hBcCol (ix2 n d) = _
  rw [broadcastTo_apply _ hBcCol (ix2 n d) (ix2 n 0) (fun a => match a with | ⟨0, _⟩ => rfl | ⟨1, _⟩ => rfl)]
  show o (ix2 n d) * Ideal.rsqrt (shapeCast S16x1 _ hCastCol (ix2 n 0) + epsW) = _
  rw [shapeCast_apply _ hCastCol (ix2 n 0) (ix1 n) (by
      rw [Shape.rowMajor_val_one, Shape.rowMajor_val_two]
      show n.val = n.val * 1 + 0; omega),
    Ideal.multiReduction_add_single]
  have hs : (∑ k : Fin (S16x64.size 1), mulf o o (hRedCoord.lift (ix1 n) k)) = ∑ d' : Fin 64, o (ix2 n d') * o (ix2 n d') :=
    Finset.sum_congr rfl fun k _ => congrArg (mulf o o) (lift_coord n k)
  rw [hs]
  rfl

theorem agreeV_read (b : FVec Ideal S512x16x1 .f32) (v : FVec Ideal S16x64 .f32) (u : FVec Ideal S512x16x64 .f32) :
    logitsOf (agreeV b v u) = agree (logitsOf b) (capsOf v) (votesOf u) := by
  funext s n
  show b (ix3 s n 0) + shapeCast S512x16x1 _ hCastKeep (ix3 s n 0) = _
  rw [shapeCast_apply _ hCastKeep (ix3 s n 0) (ix2 s n) (by
      rw [Shape.rowMajor_val_two, Shape.rowMajor_val_three]
      show s.val * 16 + n.val = (s.val * 16 + n.val) * 1 + 0; omega),
    Ideal.multiReduction_add_single]
  unfold agree logitsOf capsOf votesOf
  refine congrArg (b (ix3 s n 0) + ·) (Finset.sum_congr rfl fun k _ => ?_)
  rw [lift_lane s n k]
  show broadcastTo S512x16x64 (shapeCast S1x16x64 v hCastLead) hBcLead (ix3 s n (⟨k.val, k.isLt⟩ : Fin 64)) * u (ix3 s n (⟨k.val, k.isLt⟩ : Fin 64)) = _
  rw [broadcastTo_apply _ hBcLead (ix3 s n (⟨k.val, k.isLt⟩ : Fin 64)) (ix3 0 n (⟨k.val, k.isLt⟩ : Fin 64)) (fun a => match a with
    | ⟨0, _⟩ => rfl | ⟨1, _⟩ => rfl | ⟨2, _⟩ => rfl),
    shapeCast_apply _ hCastLead (ix3 0 n (⟨k.val, k.isLt⟩ : Fin 64)) (ix2 n (⟨k.val, k.isLt⟩ : Fin 64)) (by
      rw [Shape.rowMajor_val_two, Shape.rowMajor_val_three]
      show n.val * 64 + k.val = ((0 : Nat) * 16 + n.val) * 64 + k.val; omega)]
  rfl

/-! ## Four rounds -/

/-- Four rounds from zero logits, on the vectors. -/
def routeV (u : FVec Ideal S512x16x64 .f32) : FVec Ideal S16x64 .f32 :=
  let b0 : FVec Ideal S512x16x1 .f32 := broadcast S512x16x1 (Scalar.ofBits (F := Ideal) .f32 0x00000000#32)
  let b1 := agreeV b0 (squashV (weightedV (shiftV b0) u)) u
  let b2 := agreeV b1 (squashV (weightedV (shiftV b1) u)) u
  let b3 := agreeV b2 (squashV (weightedV (shiftV b2) u)) u
  squashV (weightedV (shiftV b3) u)

/-- The vectors' four rounds, read at (n, d), are `Routing.route` with the product squash of the votes read by coordinates. -/
theorem routeV_read (u : FVec Ideal S512x16x64 .f32) : capsOf (routeV u) = route squashMul (votesOf u) := by
  have h0 : logitsOf (broadcast S512x16x1 (Scalar.ofBits (F := Ideal) .f32 0x00000000#32)) = fun _ _ => zeroW := rfl
  unfold routeV route
  simp only [squashV_read, weightedV_read, shiftV_read, agreeV_read, h0]

end KernelRound

end
-- ==== Proof.ReferenceRound.lean ====
/-
  One routing round as the reference computes it, for all 64 batch elements at once, read index by index.

  The reference holds the votes as a [64, 16, 512, 64] array (batch, capsule, position, coordinate) and the logits as
  [64, 16, 512, 1], and moves between them by host reductions over one axis and `broadcast_in_dim`s.  Each lemma takes one
  stretch of those operations, generic in the arrays, and says what it holds at coordinates, batch element `t` fixed: the
  corresponding function of `Routing` of the arrays read at `t` (`logitsOf`, `votesOf`, `capsOf`).  A host sum over
  one axis is its initial value (zero) plus the `Finset` sum over that axis's coordinate, a host maximum the fold of
  `max` from its initial value; a `broadcast_in_dim` reads the operand at the coordinates its dimension list names.
  The squash here is the quotient by the root.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«165373_j42949672960675_2_alg».proof.Proof.Routing

noncomputable section

namespace ReferenceRound

open Idealize.ShloMosaic Idealize.ShloMosaic.ValueIdx Routing

abbrev S_ : Shape := ⟨0, ![]⟩
abbrev S64x16x512x1 : Shape := ⟨4, ![64, 16, 512, 1]⟩
abbrev S64x512x1 : Shape := ⟨3, ![64, 512, 1]⟩
abbrev S64x1x512x1 : Shape := ⟨4, ![64, 1, 512, 1]⟩
abbrev S64x16x512x64 : Shape := ⟨4, ![64, 16, 512, 64]⟩
abbrev S64x16x64 : Shape := ⟨3, ![64, 16, 64]⟩
abbrev S64x16 : Shape := ⟨2, ![64, 16]⟩
abbrev S64x16x1 : Shape := ⟨3, ![64, 16, 1]⟩
abbrev S64x16x1x64 : Shape := ⟨4, ![64, 16, 1, 64]⟩
abbrev S64x16x512 : Shape := ⟨3, ![64, 16, 512]⟩

/-- The logits, votes and capsule outputs of batch element `t`, by coordinates. -/
def logitsOf (b : FVec Ideal S64x16x512x1 .f32) (t : Fin 64) : Logits := fun s n => b (ix4 t n s 0)
def votesOf (u : FVec Ideal S64x16x512x64 .f32) (t : Fin 64) : Votes := fun s n d => u (ix4 t n s d)
def capsOf (o : FVec Ideal S64x16x64 .f32) (t : Fin 64) : Caps := fun n d => o (ix3 t n d)

/-! ## The shape facts the operations take (all decided at these literal shapes) -/

theorem hU : 0 < S_.numel := by decide
theorem hToCaps : S64x16x512x1.ReducesTo [1] S64x512x1 := by decide
theorem hRedCaps : S64x16x512x1.Reduces [1] S64x512x1 := by decide
theorem hBcS3 : S_.BroadcastsInDim S64x512x1 (![] : Fin 0 → Fin S64x512x1.rank) := by decide
theorem hBcRow : S64x512x1.BroadcastsInDim S64x1x512x1 (![0, 2, 3] : Fin 3 → Fin S64x1x512x1.rank) := by decide
theorem hBcCaps : S64x1x512x1.BroadcastsInDim S64x16x512x1 (![0, 1, 2, 3] : Fin 4 → Fin S64x16x512x1.rank) := by decide
theorem hBcLane : S64x16x512x1.BroadcastsInDim S64x16x512x64 (![0, 1, 2, 3] : Fin 4 → Fin S64x16x512x64.rank) := by decide
theorem hToPos : S64x16x512x64.ReducesTo [2] S64x16x64 := by decide
theorem hRedPos : S64x16x512x64.Reduces [2] S64x16x64 := by decide
theorem hToCoord : S64x16x64.ReducesTo [2] S64x16 := by decide
theorem hRedCoord : S64x16x64.Reduces [2] S64x16 := by decide
theorem hBcCol : S64x16.BroadcastsInDim S64x16x1 (![0, 1] : Fin 2 → Fin S64x16x1.rank) := by decide
theorem hBcEps : S_.BroadcastsInDim S64x16x1 (![] : Fin 0 → Fin S64x16x1.rank) := by decide
theorem hBcColLane : S64x16x1.BroadcastsInDim S64x16x64 (![0, 1, 2] : Fin 3 → Fin S64x16x64.rank) := by decide
theorem hBcMid : S64x16x64.BroadcastsInDim S64x16x1x64 (![0, 1, 3] : Fin 3 → Fin S64x16x1x64.rank) := by decide
theorem hBcPos : S64x16x1x64.BroadcastsInDim S64x16x512x64 (![0, 1, 2, 3] : Fin 4 → Fin S64x16x512x64.rank) := by decide
theorem hToLane : S64x16x512x64.ReducesTo [3] S64x16x512 := by decide
theorem hRedLane : S64x16x512x64.Reduces [3] S64x16x512 := by decide
theorem hBcKeep : S64x16x512.BroadcastsInDim S64x16x512x1 (![0, 1, 2] : Fin 3 → Fin S64x16x512x1.rank) := by decide

/-! ## One round's four stretches of host operations -/

/-- `exp (b − max over the capsules)`, the maximum broadcast back through a unit capsule axis. -/
def shiftV (b : FVec Ideal S64x16x512x1 .f32) : FVec Ideal S64x16x512x1 .f32 :=
  Host.exp (subf b (broadcastInDim S64x16x512x1 ![0, 1, 2, 3] hBcCaps (broadcastInDim S64x1x512x1 ![0, 2, 3] hBcRow
    (maximumf (broadcastInDim S64x512x1 ![] hBcS3 (constant (F := Ideal) S_ .f32 0xFF800000#32))
      (Host.reduce FloatOps.maximumf b (constant (F := Ideal) S_ .f32 0xFF800000#32) hToCaps hU)))))

/-- The couplings `e / sum over the capsules` broadcast over the coordinates, times the votes, summed over the positions. -/
def weightedV (e : FVec Ideal S64x16x512x1 .f32) (u : FVec Ideal S64x16x512x64 .f32) : FVec Ideal S64x16x64 .f32 :=
  Host.reduceAdd (mulf (broadcastInDim S64x16x512x64 ![0, 1, 2, 3] hBcLane (Host.divf e (broadcastInDim S64x16x512x1 ![0, 1, 2, 3] hBcCaps
    (broadcastInDim S64x1x512x1 ![0, 2, 3] hBcRow (Host.reduceAdd e (constant (F := Ideal) S_ .f32 0x00000000#32) hToCaps hU))))) u)
    (constant (F := Ideal) S_ .f32 0x00000000#32) hToPos hU

/-- The squash: divided by the root of the squared norm plus the literal. -/
def squashV (o : FVec Ideal S64x16x64 .f32) : FVec Ideal S64x16x64 .f32 :=
  Host.divf o (broadcastInDim S64x16x64 ![0, 1, 2] hBcColLane (Host.sqrt (addf (broadcastInDim S64x16x1 ![0, 1] hBcCol
    (Host.reduceAdd (mulf o o) (constant (F := Ideal) S_ .f32 0x00000000#32) hToCoord hU))
    (broadcastInDim S64x16x1 ![] hBcEps (constant (F := Ideal) S_ .f32 0x33D6BF95#32)))))

/-- The logits plus the agreement of the squashed output with each vote. -/
def agreeV (b : FVec Ideal S64x16x512x1 .f32) (v : FVec Ideal S64x16x64 .f32) (u : FVec Ideal S64x16x512x64 .f32) : FVec Ideal S64x16x512x1 .f32 :=
  addf b (broadcastInDim S64x16x512x1 ![0, 1, 2] hBcKeep (Host.reduceAdd (mulf (broadcastInDim S64x16x512x64 ![0, 1, 2, 3] hBcPos
    (broadcastInDim S64x16x1x64 ![0, 1, 3] hBcMid v)) u) (constant (F := Ideal) S_ .f32 0x00000000#32) hToLane hU))

/-! ## A reduced index with the dropped coordinate put back -/

theorem lift_caps (t : Fin 64) (s : Fin 512) (k : Fin (S64x16x512x1.size 1)) :
    hRedCaps.lift (ix3 t s 0) k = ix4 t (⟨k.val, k.isLt⟩ : Fin 16) s 0 := by
  funext c; apply Fin.ext
  fin_cases c <;> rfl

theorem lift_pos (t : Fin 64) (n : Fin 16) (d : Fin 64) (k : Fin (S64x16x512x64.size 2)) :
    hRedPos.lift (ix3 t n d) k = ix4 t n (⟨k.val, k.isLt⟩ : Fin 512) d := by
  funext c; apply Fin.ext
  fin_cases c <;> rfl

theorem lift_coord (t : Fin 64) (n : Fin 16) (k : Fin (S64x16x64.size 2)) :
    hRedCoord.lift (ix2 t n) k = ix3 t n (⟨k.val, k.isLt⟩ : Fin 64) := by
  funext c; apply Fin.ext
  fin_cases c <;> rfl

theorem lift_lane (t : Fin 64) (n : Fin 16) (s : Fin 512) (k : Fin (S64x16x512x64.size 3)) :
    hRedLane.lift (ix3 t n s) k = ix4 t n s (⟨k.val, k.isLt⟩ : Fin 64) := by
  funext c; apply Fin.ext
  fin_cases c <;> rfl

/-! ## The reads -/

/-- A per-position value broadcast back over the capsules, at (t, n, s, 0): the value at (t, s, 0). -/
theorem rowBack_read (r : FVec Ideal S64x512x1 .f32) (t : Fin 64) (s : Fin 512) (n : Fin 16) :
    broadcastInDim S64x16x512x1 _ hBcCaps (broadcastInDim S64x1x512x1 _ hBcRow r) (ix4 t n s 0) = r (ix3 t s 0) := by
  refine (broadcastInDim_apply _ hBcCaps _ (ix4 t n s 0) (ix4 t 0 s 0) (fun a => match a with
    | ⟨0, _⟩ => rfl | ⟨1, _⟩ => rfl | ⟨2, _⟩ => rfl | ⟨3, _⟩ => rfl)).trans ?_
  exact broadcastInDim_apply _ hBcRow _ (ix4 t 0 s 0) (ix3 t s 0) (fun a => match a with
    | ⟨0, _⟩ => rfl | ⟨1, _⟩ => rfl | ⟨2, _⟩ => rfl)

theorem shiftV_read (b : FVec Ideal S64x16x512x1 .f32) (t : Fin 64) : logitsOf (shiftV b) t = shifted (logitsOf b t) := by
  funext s n
  show Ideal.exp (b (ix4 t n s 0) - broadcastInDim S64x16x512x1 _ hBcCaps (broadcastInDim S64x1x512x1 _ hBcRow _) (ix4 t n s 0)) = _
  rw [rowBack_read, maximumf_apply, Host.reduce_eq_fold_single FloatOps.maximumf b _ hToCaps hRedCaps hU]
  have hf : (b ∘ hRedCaps.lift (ix3 t s 0)) = fun k : Fin 16 => b (ix4 t k s 0) := funext fun k => congrArg b (lift_caps t s k)
  unfold shifted logitsOf
  exact congrArg (fun f => Ideal.exp (b (ix4 t n s 0) - max negInfW (Finset.fold max negInfW f (Finset.univ : Finset (Fin 16))))) hf

theorem weightedV_read (e : FVec Ideal S64x16x512x1 .f32) (u : FVec Ideal S64x16x512x64 .f32) (t : Fin 64) :
    capsOf (weightedV e u) t = weighted (logitsOf e t) (votesOf u t) := by
  funext n d
  show Ideal.hostReduceAdd hToPos _ (Ideal.ofBits .f32 0x00000000#32) (ix3 t n d) = _
  rw [Ideal.hostReduceAdd_single hToPos hRedPos, Ideal.ofBits_zero_f32, zero_add]
  unfold weighted logitsOf votesOf
  refine Finset.sum_congr rfl fun k _ => ?_
  rw [lift_pos t n d k]
  show broadcastInDim S64x16x512x64 _ hBcLane _ (ix4 t n (⟨k.val, k.isLt⟩ : Fin 512) d) * u (ix4 t n (⟨k.val, k.isLt⟩ : Fin 512) d) = _
  rw [broadcastInDim_apply _ hBcLane _ (ix4 t n (⟨k.val, k.isLt⟩ : Fin 512) d) (ix4 t n (⟨k.val, k.isLt⟩ : Fin 512) 0) (fun a => match a with
    | ⟨0, _⟩ => rfl | ⟨1, _⟩ => rfl | ⟨2, _⟩ => rfl | ⟨3, _⟩ => rfl)]
  show Ideal.div (e (ix4 t n (⟨k.val, k.isLt⟩ : Fin 512) 0)) (broadcastInDim S64x16x512x1 _ hBcCaps (broadcastInDim S64x1x512x1 _ hBcRow _) (ix4 t n (⟨k.val, k.isLt⟩ : Fin 512) 0)) * _ = _
  rw [rowBack_read]
  show Ideal.div _ (Ideal.hostReduceAdd hToCaps e (Ideal.ofBits .f32 0x00000000#32) (ix3 t (⟨k.val, k.isLt⟩ : Fin 512) 0)) * _ = _
  rw [Ideal.hostReduceAdd_single hToCaps hRedCaps, Ideal.ofBits_zero_f32, zero_add]
  have hs : (∑ k' : Fin (S64x16x512x1.size 1), e (hRedCaps.lift (ix3 t (⟨k.val, k.isLt⟩ : Fin 512) 0) k')) = ∑ n' : Fin 16, e (ix4 t n' (⟨k.val, k.isLt⟩ : Fin 512) 0) :=
    Finset.sum_congr rfl fun k' _ => congrArg e (lift_caps t _ k')
  rw [hs]
  rfl

theorem squashV_read (o : FVec Ideal S64x16x64 .f32) (t : Fin 64) : capsOf (squashV o) t = squashDiv (capsOf o t) := by
  funext n d
  show Ideal.div (o (ix3 t n d)) (broadcastInDim S64x16x64 _ hBcColLane _ (ix3 t n d)) = _
  rw [broadcastInDim_apply _ hBcColLane _ (ix3 t n d) (ix3 t n 0) (fun a => match a with | ⟨0, _⟩ => rfl | ⟨1, _⟩ => rfl | ⟨2, _⟩ => rfl)]
  show Ideal.div (o (ix3 t n d)) (Ideal.sqrt (broadcastInDim S64x16x1 _ hBcCol _ (ix3 t n 0) + epsW)) = _
  rw [broadcastInDim_apply _ hBcCol _ (ix3 t n 0) (ix2 t n) (fun a => match a with | ⟨0, _⟩ => rfl | ⟨1, _⟩ => rfl)]
  show Ideal.div (o (ix3 t n d)) (Ideal.sqrt (Ideal.hostReduceAdd hToCoord (mulf o o) (Ideal.ofBits .f32 0x00000000#32) (ix2 t n) + epsW)) = _
  rw [Ideal.hostReduceAdd_single hToCoord hRedCoord, Ideal.ofBits_zero_f32, zero_add]
  have hs : (∑ k : Fin (S64x16x64.size 2), mulf o o (hRedCoord.lift (ix2 t n) k)) = ∑ d' : Fin 64, o (ix3 t n d') * o (ix3 t n d') :=
    Finset.sum_congr rfl fun k _ => congrArg (mulf o o) (lift_coord t n k)
  rw [hs]
  rfl

theorem agreeV_read (b : FVec Ideal S64x16x512x1 .f32) (v : FVec Ideal S64x16x64 .f32) (u : FVec Ideal S64x16x512x64 .f32) (t : Fin 64) :
    logitsOf (agreeV b v u) t = agree (logitsOf b t) (capsOf v t) (votesOf u t) := by
  funext s n
  show b (ix4 t n s 0) + broadcastInDim S64x16x512x1 _ hBcKeep _ (ix4 t n s 0) = _
  rw [broadcastInDim_apply _ hBcKeep _ (ix4 t n s 0) (ix3 t n s) (fun a => match a with | ⟨0, _⟩ => rfl | ⟨1, _⟩ => rfl | ⟨2, _⟩ => rfl)]
  show b (ix4 t n s 0) + Ideal.hostReduceAdd hToLane _ (Ideal.ofBits .f32 0x00000000#32) (ix3 t n s) = _
  rw [Ideal.hostReduceAdd_single hToLane hRedLane, Ideal.ofBits_zero_f32, zero_add]
  unfold agree logitsOf capsOf votesOf
  refine congrArg (b (ix4 t n s 0) + ·) (Finset.sum_congr rfl fun k _ => ?_)
  rw [lift_lane t n s k]
  show broadcastInDim S64x16x512x64 _ hBcPos (broadcastInDim S64x16x1x64 _ hBcMid v) (ix4 t n s (⟨k.val, k.isLt⟩ : Fin 64)) * u (ix4 t n s (⟨k.val, k.isLt⟩ : Fin 64)) = _
  rw [broadcastInDim_apply _ hBcPos _ (ix4 t n s (⟨k.val, k.isLt⟩ : Fin 64)) (ix4 t n 0 (⟨k.val, k.isLt⟩ : Fin 64)) (fun a => match a with
    | ⟨0, _⟩ => rfl | ⟨1, _⟩ => rfl | ⟨2, _⟩ => rfl | ⟨3, _⟩ => rfl),
    broadcastInDim_apply _ hBcMid _ (ix4 t n 0 (⟨k.val, k.isLt⟩ : Fin 64)) (ix3 t n (⟨k.val, k.isLt⟩ : Fin 64)) (fun a => match a with
    | ⟨0, _⟩ => rfl | ⟨1, _⟩ => rfl | ⟨2, _⟩ => rfl)]
  rfl

/-! ## Four rounds -/

/-- Four rounds from zero logits, on the arrays. -/
def routeV (b0 : FVec Ideal S64x16x512x1 .f32) (u : FVec Ideal S64x16x512x64 .f32) : FVec Ideal S64x16x64 .f32 :=
  let b1 := agreeV b0 (squashV (weightedV (shiftV b0) u)) u
  let b2 := agreeV b1 (squashV (weightedV (shiftV b1) u)) u
  let b3 := agreeV b2 (squashV (weightedV (shiftV b2) u)) u
  squashV (weightedV (shiftV b3) u)

/-- The arrays' four rounds from logits that read zero everywhere, at batch element `t`, are `Routing.route` with the
    quotient squash of the votes read at `t`. -/
theorem routeV_read (b0 : FVec Ideal S64x16x512x1 .f32) (u : FVec Ideal S64x16x512x64 .f32) (t : Fin 64)
    (h0 : logitsOf b0 t = fun _ _ => zeroW) : capsOf (routeV b0 u) t = route squashDiv (votesOf u t) := by
  unfold routeV route
  simp only [squashV_read, weightedV_read, shiftV_read, agreeV_read, h0]

end ReferenceRound

end
-- ==== Proof.Votes.lean ====
/-
  The votes: every position's hidden vector times the weight matrix, its 1024 columns split into 16 capsules of 64
  coordinates.  For batch element `t`,  `proj x w t s n d = ∑ h, x[s, t, h] · w[0, h, 64 n + d]`.

  The kernel forms them per batch element from a [512, 1024] block of the inputs and the whole [1024, 1024] weight matrix
  (a matrix product into a zero accumulator, then the columns split); the reference forms them for all batch elements at
  once (the inputs transposed to batch-major, a `dot_general` contracting the hidden axis, the columns split, capsule
  and position axes exchanged).  At the extended reals both products are the plain sum over the hidden axis.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«165373_j42949672960675_2_alg».proof.Proof.Routing

noncomputable section

namespace Projection

open Idealize.ShloMosaic Idealize.ShloMosaic.ValueIdx Routing

abbrev S512x64x1024 : Shape := ⟨3, ![512, 64, 1024]⟩
abbrev S1x1024x1024 : Shape := ⟨3, ![1, 1024, 1024]⟩
abbrev S512x1024 : Shape := ⟨2, ![512, 1024]⟩
abbrev S1024x1024 : Shape := ⟨2, ![1024, 1024]⟩
abbrev S512x16x64 : Shape := ⟨3, ![512, 16, 64]⟩
abbrev S64x512x1024 : Shape := ⟨3, ![64, 512, 1024]⟩
abbrev S64x512x16x64 : Shape := ⟨4, ![64, 512, 16, 64]⟩
abbrev S64x16x512x64 : Shape := ⟨4, ![64, 16, 512, 64]⟩

/-- Column `64 n + d` of the weight matrix. -/
abbrev col (n : Fin 16) (d : Fin 64) : Fin 1024 := ⟨n.val * 64 + d.val, by have := n.isLt; have := d.isLt; omega⟩

/-- The votes of batch element `t`. -/
def proj (x : S512x64x1024.Idx → EReal) (w : S1x1024x1024.Idx → EReal) (t : Fin 64) : Votes :=
  fun s n d => ∑ h : Fin 1024, x (ix3 s t h) * w (ix3 0 h (col n d))

/-! ## The kernel's product of one block -/

theorem hDotK : DotDims.WF S512x1024 S1024x1024 S512x1024 [1] [0] [0] [1] [] [] := by decide
def dotK : DotDims S512x1024 S1024x1024 S512x1024 := ⟨[1], [0], [0], [1], [], [], hDotK⟩
theorem hSameX : S512x1024.ShapeCasts S512x1024 := by decide
theorem hSameW : S1024x1024.ShapeCasts S1024x1024 := by decide
theorem hSplitK : S512x1024.ShapeCasts S512x16x64 := by decide
theorem hNarrow : FTy.bits .bf16 < FTy.bits .f32 := by decide

/-- The block times the weights into a zero accumulator (the narrowing of the block is the identity here), columns split. -/
def projK (xb : FVec Ideal S512x1024 .f32) (wb : FVec Ideal S1024x1024 .bf16) : FVec Ideal S512x16x64 .f32 :=
  shapeCast S512x16x64 (FloatOps.matmul dotK none (truncf .bf16 (shapeCast S512x1024 xb hSameX) hNarrow) (shapeCast S1024x1024 wb hSameW)
    (constant S512x1024 .f32 0x00000000#32)) hSplitK

theorem projK_read (xb : FVec Ideal S512x1024 .f32) (wb : FVec Ideal S1024x1024 .bf16) (s : Fin 512) (n : Fin 16) (d : Fin 64) :
    projK xb wb (ix3 s n d) = ∑ h : Fin 1024, xb (ix2 s h) * wb (ix2 h (col n d)) := by
  unfold projK
  rw [shapeCast_apply _ hSplitK (ix3 s n d) (ix2 s (col n d)) (by
    rw [Shape.rowMajor_val_two, Shape.rowMajor_val_three]
    show s.val * 1024 + (n.val * 64 + d.val) = (s.val * 16 + n.val) * 64 + d.val; omega),
    Ideal.matmul_constant_zero_apply, ← Equiv.sum_comp (contrEquiv1 dotK 1024 rfl rfl).symm]
  refine Finset.sum_congr rfl fun h _ => ?_
  have ch := contrEquiv1_symm_val dotK 1024 rfl rfl h
  have l2 : dotK.lhsIdx (ix2 s (col n d)) ((contrEquiv1 dotK 1024 rfl rfl).symm h) = ix2 s h := by
    funext ax; apply Fin.ext
    match ax with
    | ⟨0, _⟩ => simp [DotDims.lhsIdx, dotK]; rfl
    | ⟨1, _⟩ => simp [DotDims.lhsIdx, dotK]; exact ch
  have r2 : dotK.rhsIdx (ix2 s (col n d)) ((contrEquiv1 dotK 1024 rfl rfl).symm h) = ix2 h (col n d) := by
    funext ax; apply Fin.ext
    match ax with
    | ⟨0, _⟩ => simp [DotDims.rhsIdx, dotK]; exact ch
    | ⟨1, _⟩ => simp [DotDims.rhsIdx, dotK]; rfl
  rw [l2, r2]
  show shapeCast S512x1024 xb hSameX (ix2 s h) * shapeCast S1024x1024 wb hSameW (ix2 h (col n d)) = _
  rw [shapeCast_self, shapeCast_self]

/-! ## The reference's product of all batch elements -/

theorem hDotR : DotDims.WF S64x512x1024 S1024x1024 S64x512x1024 [2] [0] [0, 1] [1] [] [] := by decide
def dotR : DotDims S64x512x1024 S1024x1024 S64x512x1024 := ⟨[2], [0], [0, 1], [1], [], [], hDotR⟩
theorem hBatchMajor : S512x64x1024.Transposes [1, 0, 2] S64x512x1024 := by decide
theorem hDropLead : S1x1024x1024.ShapeCasts S1024x1024 := by decide
theorem hSplitR : S64x512x1024.ShapeCasts S64x512x16x64 := by decide
theorem hSwap : S64x512x16x64.Transposes [0, 2, 1, 3] S64x16x512x64 := by decide

/-- Batch-major inputs times the weights, columns split, capsule and position axes exchanged. -/
def projR (x : FVec Ideal S512x64x1024 .f32) (w : FVec Ideal S1x1024x1024 .f32) : FVec Ideal S64x16x512x64 .f32 :=
  transpose S64x16x512x64 [0, 2, 1, 3] (shapeCast S64x512x16x64 (Host.dotGeneral dotR none (transpose S64x512x1024 [1, 0, 2] x hBatchMajor)
    (shapeCast S1024x1024 w hDropLead)) hSplitR) hSwap

theorem projR_read (x : FVec Ideal S512x64x1024 .f32) (w : FVec Ideal S1x1024x1024 .f32) (t : Fin 64) (s : Fin 512) (n : Fin 16) (d : Fin 64) :
    projR x w (ix4 t n s d) = proj x w t s n d := by
  unfold projR
  rw [transpose_apply _ _ hSwap (ix4 t n s d) (ix4 t s n d) (fun b => match b with
    | ⟨0, _⟩ => rfl | ⟨1, _⟩ => rfl | ⟨2, _⟩ => rfl | ⟨3, _⟩ => rfl),
    shapeCast_apply _ hSplitR (ix4 t s n d) (ix3 t s (col n d)) (by
      rw [Shape.rowMajor_val_three, Shape.rowMajor_val_four]
      show (t.val * 512 + s.val) * 1024 + (n.val * 64 + d.val) = ((t.val * 512 + s.val) * 16 + n.val) * 64 + d.val; omega)]
  show FloatOps.dotGeneral dotR none _ _ _ (ix3 t s (col n d)) = _
  rw [Ideal.dotGeneral_apply, ← Equiv.sum_comp (contrEquiv1 dotR 1024 rfl rfl).symm]
  unfold proj
  refine Finset.sum_congr rfl fun h _ => ?_
  have ch := contrEquiv1_symm_val dotR 1024 rfl rfl h
  have l3 : dotR.lhsIdx (ix3 t s (col n d)) ((contrEquiv1 dotR 1024 rfl rfl).symm h) = ix3 t s h := by
    funext ax; apply Fin.ext
    match ax with
    | ⟨0, _⟩ => simp [DotDims.lhsIdx, dotR]; rfl
    | ⟨1, _⟩ => simp [DotDims.lhsIdx, dotR]; rfl
    | ⟨2, _⟩ => simp [DotDims.lhsIdx, dotR]; exact ch
  have r2 : dotR.rhsIdx (ix3 t s (col n d)) ((contrEquiv1 dotR 1024 rfl rfl).symm h) = ix2 h (col n d) := by
    funext ax; apply Fin.ext
    match ax with
    | ⟨0, _⟩ => simp [DotDims.rhsIdx, dotR]; exact ch
    | ⟨1, _⟩ => simp [DotDims.rhsIdx, dotR]; rfl
  rw [l3, r2,
    transpose_apply _ _ hBatchMajor (ix3 t s h) (ix3 s t h) (fun b => match b with
      | ⟨0, _⟩ => rfl | ⟨1, _⟩ => rfl | ⟨2, _⟩ => rfl),
    shapeCast_apply _ hDropLead (ix2 h (col n d)) (ix3 0 h (col n d)) (by
      rw [Shape.rowMajor_val_two, Shape.rowMajor_val_three]
      show ((0 : Nat) * 1024 + h.val) * 1024 + (n.val * 64 + d.val) = h.val * 1024 + (n.val * 64 + d.val); omega)]

end Projection

end
-- ==== Proof.Bridge.lean ====
/-
  The result both programs compute, and why.

  `result x w` at (t, n, d) is coordinate `d` of capsule `n` after four routing rounds on the votes of batch element
  `t`, the votes being the inputs' row times the weights (`Projection.proj`).  It is written with the quotient squash.

  The kernel computes one batch element per grid point from a block `xb` of the inputs and the weights `wb`; if the
  block holds row `(s, t, ·)` of the inputs at `(s, ·)` and `wb` the weights, what it stores at (0, n, d) is
  `result x w` at (t, n, d): its rounds are `Routing.route` with the product squash (`KernelRound.routeV_read`), its votes
  `proj x w t` (`Projection.projK_read`), and the two squashes agree (`Routing.route_squash`).
  The reference's four rounds on its votes array are `result x w` everywhere (`ReferenceRound.routeV_read`,
  `Projection.projR_read`).
-/
import proofs.«165373_j42949672960675_2_alg».proof.Proof.KernelRound
import proofs.«165373_j42949672960675_2_alg».proof.Proof.ReferenceRound
import proofs.«165373_j42949672960675_2_alg».proof.Proof.Votes

noncomputable section

namespace Bridge

open Idealize.ShloMosaic Idealize.ShloMosaic.ValueIdx Routing Projection

abbrev S64x16x64 : Shape := ⟨3, ![64, 16, 64]⟩

/-- Capsule `n`, coordinate `d`, of batch element `t`, after four rounds. -/
def result (x : S512x64x1024.Idx → EReal) (w : S1x1024x1024.Idx → EReal) : S64x16x64.Idx → EReal :=
  fun j => route squashDiv (proj x w (j 0)) (j 1) (j 2)

/-- What the kernel's body stores at (0, n, d) from a block holding row `t` of the inputs and from the weights. -/
theorem kernel_point (x : S512x64x1024.Idx → EReal) (w : S1x1024x1024.Idx → EReal) (t : Fin 64)
    (xb : FVec Ideal S512x1024 .f32) (wb : FVec Ideal S1024x1024 .bf16)
    (hx : ∀ (s : Fin 512) (h : Fin 1024), xb (ix2 s h) = x (ix3 s t h))
    (hw : ∀ (h o : Fin 1024), wb (ix2 h o) = w (ix3 0 h o)) (n : Fin 16) (d : Fin 64) :
    shapeCast KernelRound.S1x16x64 (KernelRound.routeV (projK xb wb)) KernelRound.hCastLead (ix3 0 n d) = result x w (ix3 t n d) := by
  rw [shapeCast_apply _ KernelRound.hCastLead (ix3 0 n d) (ix2 n d) (by
    rw [Shape.rowMajor_val_two, Shape.rowMajor_val_three]
    show n.val * 64 + d.val = ((0 : Nat) * 16 + n.val) * 64 + d.val; omega)]
  have hv : KernelRound.votesOf (projK xb wb) = proj x w t := by
    funext s n d
    unfold KernelRound.votesOf
    rw [projK_read]
    unfold proj
    exact Finset.sum_congr rfl fun h _ => by rw [hx, hw]
  show KernelRound.capsOf (KernelRound.routeV (projK xb wb)) n d = route squashDiv (proj x w t) n d
  rw [KernelRound.routeV_read, hv, route_squash]

/-- The reference's four rounds, from logits that are zero everywhere, on its votes array. -/
theorem reference_value (x : FVec Ideal S512x64x1024 .f32) (w : FVec Ideal S1x1024x1024 .f32)
    (b0 : FVec Ideal ReferenceRound.S64x16x512x1 .f32) (h0 : ∀ i, b0 i = zeroW) :
    ReferenceRound.routeV b0 (projR x w) = result x w := by
  funext j
  obtain ⟨t, n, d, rfl⟩ : ∃ (t : Fin 64) (n : Fin 16) (d : Fin 64), j = ix3 t n d := ⟨j 0, j 1, j 2, eq_ix3 j⟩
  have hv : ReferenceRound.votesOf (projR x w) t = proj x w t := by
    funext s n d
    exact projR_read x w t s n d
  show ReferenceRound.capsOf (ReferenceRound.routeV b0 (projR x w)) t n d = route squashDiv (proj x w t) n d
  rw [ReferenceRound.routeV_read b0 _ t (funext fun s => funext fun n => h0 _), hv]

end Bridge

end
-- ==== Proof.KernelValue.lean ====
/-
  What the kernel's run leaves in its output array: `Bridge.result` of the two argument arrays.

  Grid point `t` (of 64) handles batch element `t`.  Its first input block is rows `(·, 1024 t + ·)` of the inputs
  reshaped to [512, 65536], that is `inputs[·, t, ·]`; its second input block is the whole weight matrix, the second
  argument with its unit axis dropped (and narrowed, the identity here); its output block is row `t` of the [64, 16, 64]
  result.  The body's payload is four rounds on the projected block (by unfolding), so what point `t` writes back is
  block `t` of `Bridge.result` (`Bridge.kernel_point`); the 64 blocks tile the array.
-/
import proofs.«165373_j42949672960675_2_alg».proof.Proof.Gen.KernelIdeal.Frame
import Idealize.ShloMosaic.Lib.Pipeline.Value
import proofs.«165373_j42949672960675_2_alg».proof.Proof.Bridge
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

set_option maxRecDepth 65536 in
/-- The body's payload is four rounds on the block's projection, with a leading unit axis put on. -/
theorem payload_eq (P0 : Vec Ideal S512x1024 .f32) (P1 : Vec Ideal S1024x1024 .bf16) :
    k0_pay1 (F := Ideal) (k0_pay2 P0 P1) (k0_pay5 (k0_pay2 P0 P1) (k0_pay3 P0 P1) (k0_pay4 P0 P1))
      = shapeCast S1x16x64 (KernelRound.routeV (Projection.projK P0 P1)) KernelRound.hCastLead := rfl

/-- The first window's array as the region finds it: the inputs reshaped to [512, 65536]. -/
theorem inputs_array (c : Dev nD) :
    (V m c main_v0 : S512x65536.Idx → EReal) = shapeCast S512x65536 (m ((c : Thread nD τ).loc main_arg0)) shapeCasts_S512x64x1024_S512x65536 := by
  dsimp only [Gen.V, Gen.hostOps0]; after_results; rfl

/-- The second window's array as the region finds it: the weights with the unit axis dropped, narrowed. -/
theorem weights_array (c : Dev nD) :
    (V m c main_v2 : S1024x1024.Idx → EReal)
      = truncf (F := Ideal) .bf16 (shapeCast S1024x1024 (m ((c : Thread nD τ).loc main_arg1)) shapeCasts_S1x1024x1024_S1024x1024) bitsLt_bf16_f32 := by
  dsimp only [Gen.V, Gen.hostOps0]; after_results; rfl

/-- The printed index maps over the grid: the inputs' block index is (0, t), the weights' (0, 0), the output's (t, 0, 0). -/
theorem index_maps : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `Bridge.result` of the arguments. -/
theorem flushed_eq (c : Dev nD) (t : Fin cfg0.N) :
    (dats m 0 c).flushed 2 t = ((cfg0.win 2).blk t).view.read (Elt Ideal)
      (Bridge.result (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero3]
  simp only [View.ld_unit_zero (S := S512x1024) zero2, View.ld_unit_zero (S := S1024x1024) zero2]
  rw [payload_eq]
  obtain ⟨e00, e01, e10, e11, e20, e21, e22⟩ := index_maps t
  have ht : t.val < 64 := lt_of_lt_of_eq t.isLt N_0
  -- the inputs' block holds row `t`
  have hx : ∀ (s : Fin 512) (h : Fin 1024),
      iblk m c 0 t (ix2 s h) = m ((c : Thread nD τ).loc main_arg0) (ix3 s (⟨t.val, ht⟩ : Fin 64) h) := by
    intro s h
    show V m c main_v0 (((cfg0.win 0).blk t).view.emb (ix2 s h)) = _
    rw [inputs_array]
    exact shapeCast_apply _ _ _ (ix3 s (⟨t.val, ht⟩ : Fin 64) h) (by
      rw [Shape.rowMajor_val_three, Shape.rowMajor_val_two]
      show (s.val * 64 + t.val) * 1024 + h.val
        = (win0_0.index t (0 : Fin 2) * 512 + 1 * s.val) * 65536 + (win0_0.index t (1 : Fin 2) * 1024 + 1 * h.val)
      omega)
  -- the weights' block is the whole matrix
  have hw : ∀ (h o : Fin 1024), iblk m c 1 t (ix2 h o) = m ((c : Thread nD τ).loc main_arg1) (ix3 0 h o) := by
    intro h o
    show V m c main_v2 (((cfg0.win 1).blk t).view.emb (ix2 h o)) = _
    rw [weights_array]
    exact shapeCast_apply _ _ _ (ix3 0 h o) (by
      rw [Shape.rowMajor_val_three, Shape.rowMajor_val_two]
      show ((0 : Nat) * 1024 + h.val) * 1024 + o.val
        = (win0_1.index t (0 : Fin 2) * 1024 + 1 * h.val) * 1024 + (win0_1.index t (1 : Fin 2) * 1024 + 1 * o.val)
      omega)
  funext y
  have hy0 : (y 0).val < 1 := (y 0).isLt
  have hy1 : (y 1).val < 16 := (y 1).isLt
  have hy2 : (y 2).val < 64 := (y 2).isLt
  have key := Bridge.kernel_point (m ((c : Thread nD τ).loc main_arg0)) (m ((c : Thread nD τ).loc main_arg1)) (⟨t.val, ht⟩ : Fin 64)
    (iblk m c 0 t) (iblk m c 1 t) hx hw (⟨(y 1).val, hy1⟩ : Fin 16) (⟨(y 2).val, hy2⟩ : Fin 64)
  have hy : y = ix3 (0 : Fin 1) (⟨(y 1).val, hy1⟩ : Fin 16) (⟨(y 2).val, hy2⟩ : Fin 64) := by
    funext a; apply Fin.ext
    match a with
    | ⟨0, _⟩ => show (y 0).val = 0; omega
    | ⟨1, _⟩ => rfl
    | ⟨2, _⟩ => rfl
  have hemb : ix3 (⟨t.val, ht⟩ : Fin 64) (⟨(y 1).val, hy1⟩ : Fin 16) (⟨(y 2).val, hy2⟩ : Fin 64) = ((cfg0.win 2).blk t).view.emb y := by
    funext a; apply Fin.ext
    match a with
    | ⟨0, _⟩ => show t.val = win0_2.index t (0 : Fin 3) * 1 + 1 * (y 0).val; omega
    | ⟨1, _⟩ => show (y 1).val = win0_2.index t (1 : Fin 3) * 16 + 1 * (y 1).val; omega
    | ⟨2, _⟩ => show (y 2).val = win0_2.index t (2 : Fin 3) * 64 + 1 * (y 2).val; omega
  show shapeCast S1x16x64 (KernelRound.routeV (Projection.projK (iblk m c 0 t) (iblk m c 1 t))) KernelRound.hCastLead y
    = Bridge.result (m ((c : Thread nD τ).loc main_arg0)) (m ((c : Thread nD τ).loc main_arg1)) (((cfg0.win 2).blk t).view.emb y)
  rw [← hemb]
  exact (congrArg (shapeCast S1x16x64 (KernelRound.routeV (Projection.projK (iblk m c 0 t) (iblk m c 1 t))) KernelRound.hCastLead) hy).trans key

/-- An index of the array is in point `t`'s block iff each coordinate is in the block's range on its axis. -/
theorem mem_block (t : Fin cfg0.N) (i : S64x16x64.Idx) :
    i ∈ ((cfg0.win 2).blk t).view.set ↔ ∀ a : Fin 3, win0_2.index t a * S1x16x64.size a ≤ (i a).val
      ∧ (i a).val < win0_2.index t a * S1x16x64.size a + S1x16x64.size a := by
  show i ∈ ((View.whole main_v3).slice (win0_2.rect t)).set ↔ _
  rw [View.set_slice_whole, Rect.mem_set_unit]
  exact Iff.rfl

/-- Every index of the array is in the block of the point its first coordinate names. -/
theorem covered (i : S64x16x64.Idx) : ∃ t : Fin cfg0.N, (cfg0.win 2).flush t = true ∧ i ∈ ((cfg0.win 2).blk t).view.set := by
  have hi0 : (i 0).val < 64 := (i 0).isLt
  have hi1 : (i 1).val < 16 := (i 1).isLt
  have hi2 : (i 2).val < 64 := (i 2).isLt
  refine ⟨⟨(i 0).val, lt_of_lt_of_eq hi0 N_0.symm⟩, flush0_2 _, ?_⟩
  obtain ⟨-, -, -, -, e20, e21, e22⟩ := index_maps ⟨(i 0).val, lt_of_lt_of_eq hi0 N_0.symm⟩
  have e20' : win0_2.index ⟨(i 0).val, lt_of_lt_of_eq hi0 N_0.symm⟩ (0 : Fin 3) = (i 0).val := e20
  rw [mem_block]
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    omega
  | ⟨1, _⟩ =>
    show win0_2.index ⟨(i 0).val, _⟩ (1 : Fin 3) * 16 ≤ (i 1).val ∧ (i 1).val < win0_2.index ⟨(i 0).val, _⟩ (1 : Fin 3) * 16 + 16
    omega
  | ⟨2, _⟩ =>
    show win0_2.index ⟨(i 0).val, _⟩ (2 : Fin 3) * 64 ≤ (i 2).val ∧ (i 2).val < win0_2.index ⟨(i 0).val, _⟩ (2 : Fin 3) * 64 + 64
    omega

/-- THE ARRAY after the run is `Bridge.result` of the arguments. -/
theorem final (c : Dev nD) : (dats m 0 c).arrAt 2 cfg0.N
    = Bridge.result (m ((c : Thread nD τ).loc main_arg0)) (m ((c : Thread nD τ).loc main_arg1)) :=
  (dats m 0 c).arrAt_eq_of_cover 2 _ (fun t _ => flushed_eq m c t) covered

/-- Every weakly fair execution of the kernel's program ends with the output array at `Bridge.result` of the arguments as
    launched, the arguments unchanged. -/
theorem run_result : θ_run defs (onTc (τ := τ) (main (F := Ideal))) ⟨m, fun _ => 0, ρ⟩ fun r => ∀ c : Dev nD,
      r.2.mem ((c : Thread nD τ).loc main_v3) = Bridge.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.KernelValue

end
-- ==== Proof.ReferenceValue.lean ====
/-
  What the reference's run leaves in its result array: `Bridge.result` of the two argument arrays.

  The generated run states the result as the composed term of the host operations over named intermediate arrays.  That
  term is, by unfolding the names, the reference's four rounds (`ReferenceRound.routeV`) from the zero-logits array on
  the votes array (`Projection.projR` of the arguments); `Bridge.reference_value` says what those are.
-/
import proofs.«165373_j42949672960675_2_alg».proof.Proof.Gen.ReferenceIdeal.Run
import proofs.«165373_j42949672960675_2_alg».proof.Proof.Bridge

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.StableHlo

/-- The zero-logits array reads the zero word everywhere. -/
theorem logits0_read (V0 : Valuation τ sig (Elt Ideal)) (i : S64x16x512x1.Idx) : res_main_v5 (F := Ideal) V0 i = Routing.zeroW := rfl

/-- The votes array is the projection of the two arguments. -/
theorem votes_eq (V0 : Valuation τ sig (Elt Ideal)) :
    res_main_v4 (F := Ideal) V0 = Projection.projR (V0 (Proc.devRef .tc main_arg0)) (V0 (Proc.devRef .tc main_arg1)) := rfl

set_option maxRecDepth 8192 in
/-- The run's result term is the four rounds on the votes array from the zero-logits array. -/
theorem term_eq (V0 : Valuation τ sig (Elt Ideal)) :
    Host.divf (res_main_v103 (F := Ideal) V0) (broadcastInDim S64x16x64 ![0, 1, 2] bcast_S64x16x1_S64x16x64_0_1_2 (Host.sqrt (addf (broadcastInDim S64x16x1 ![0, 1] bcast_S64x16_S64x16x1_0_1 (Host.reduceAdd (mulf (res_main_v103 V0) (res_main_v103 V0)) (constant S_ .f32 0x00000000#32) reducesTo_S64x16x64_S64x16_d2 h_S_)) (broadcastInDim S64x16x1 ![] bcast_S_S64x16x1 (constant S_ .f32 0x33D6BF95#32)))))
      = ReferenceRound.routeV (res_main_v5 V0) (res_main_v4 V0) := rfl

/-- Every weakly fair execution of the reference ends with the result array at `Bridge.result` of the arguments as
    launched, the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = Bridge.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [term_eq, votes_eq]
      exact Bridge.reference_value _ _ _ (logits0_read _)), (h c).2⟩)
    (Value.run (F := Ideal) m ρ)

end Cert.ReferenceIdeal.RefValue

end
-- ==== Proof.lean ====
/-
  The kernel routes capsules for one batch element per grid point; the reference does it for all 64 at once.

  Both compute, for batch element `t`, the votes `u[s, n, d] = ∑ h, inputs[s, t, h] · W[0, h, 64 n + d]` and then four
  rounds of routing from zero logits: couplings by a softmax of the logits over the 16 capsules, a capsule's output the
  coupling-weighted sum of its votes over the 512 positions, squashed, and the logits raised by the agreement of output
  and vote.  The operations and the float words are the same on both sides, in different layouts — the kernel holds
  [512, 16, ·] per batch element, the reference [64, 16, 512, ·] — except for the squash: the kernel multiplies by the
  reciprocal square root of the squared norm plus a small positive literal, the reference divides by its square root.
  On the extended reals those agree because the squared norm is a sum of squares, hence not negative, so what is under
  the root is positive (`Routing.squashMul_eq_squashDiv`); no finiteness of the inputs is used.

  `Routing` states one round and four rounds as plain functions; `KernelRound` and `ReferenceRound` read each side's
  vector operations against them index by index; `Projection` reads the two matrix products as the same sum;
  `Bridge.result` is the common result, and `KernelValue.run_result` / `RefValue.run_result` say each program's run ends
  with its result array holding it.  The three frames are the generated ones (the reference's is its generated run with
  the result dropped); the idealization rewrote nothing, so `preserves` is `True`.
-/
import proofs.«165373_j42949672960675_2_alg».proof.Defs
import proofs.«165373_j42949672960675_2_alg».proof.Proof.Gen.Kernel
import proofs.«165373_j42949672960675_2_alg».proof.Proof.Gen.Kernel.Skeleton
import proofs.«165373_j42949672960675_2_alg».proof.Proof.Gen.Kernel.Launch
import proofs.«165373_j42949672960675_2_alg».proof.Proof.Gen.Kernel.Points
import proofs.«165373_j42949672960675_2_alg».proof.Proof.Gen.Kernel.Frame
import proofs.«165373_j42949672960675_2_alg».proof.Proof.Gen.KernelIdeal
import proofs.«165373_j42949672960675_2_alg».proof.Proof.Gen.KernelIdeal.Skeleton
import proofs.«165373_j42949672960675_2_alg».proof.Proof.Gen.KernelIdeal.Launch
import proofs.«165373_j42949672960675_2_alg».proof.Proof.Gen.KernelIdeal.Points
import proofs.«165373_j42949672960675_2_alg».proof.Proof.Gen.KernelIdeal.Frame
import proofs.«165373_j42949672960675_2_alg».proof.Proof.Gen.ReferenceIdeal
import proofs.«165373_j42949672960675_2_alg».proof.Proof.Gen.Pre_finite_inputs
import proofs.«165373_j42949672960675_2_alg».proof.Proof.Gen.ReferenceIdeal.Run
import proofs.«165373_j42949672960675_2_alg».proof.Proof.KernelValue
import proofs.«165373_j42949672960675_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result array at `Bridge.result` of the kernel's
    arguments. -/
theorem algebraic : Cert.algebraic_KernelIdeal_ReferenceIdeal := by
  intro m ρ m' ρ' _ hagree
  refine ⟨fun c => Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run_result m ρ, ?_⟩
  refine (θ_run Cert.ReferenceIdeal.defs _ _).mono (fun _ h c => ⟨(h c).1.trans ?_, (h c).2⟩)
    (Cert.ReferenceIdeal.RefValue.run_result m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
